-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S2000x128 : Shape := ⟨2, ![2000, 128]⟩
abbrev S2000x256 : Shape := ⟨2, ![2000, 256]⟩
abbrev S690000x256 : Shape := ⟨2, ![690000, 256]⟩
abbrev S1x256 : Shape := ⟨2, ![1, 256]⟩

abbrev nBuf : Space → Nat
  | .hbm => 109
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x640000, .i32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S690000, .i32⟩
  | .hbm, ⟨19, _⟩ => ⟨S690000, .i1⟩
  | .hbm, ⟨20, _⟩ => ⟨S_, .i32⟩
  | .hbm, ⟨21, _⟩ => ⟨S690000, .i32⟩
  | .hbm, ⟨22, _⟩ => ⟨S690000, .i32⟩
  | .hbm, ⟨23, _⟩ => ⟨S690000, .i32⟩
  | .hbm, ⟨24, _⟩ => ⟨S690000x1, .i32⟩
  | .hbm, ⟨25, _⟩ => ⟨S_, .f32⟩
  | .hbm, ⟨26, _⟩ => ⟨S690000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S_, .i32⟩
  | .hbm, ⟨46, _⟩ => ⟨S690000, .i32⟩
  | .hbm, ⟨47, _⟩ => ⟨S690000, .i1⟩
  | .hbm, ⟨48, _⟩ => ⟨S_, .i32⟩
  | .hbm, ⟨49, _⟩ => ⟨S690000, .i32⟩
  | .hbm, ⟨50, _⟩ => ⟨S690000, .i32⟩
  | .hbm, ⟨51, _⟩ => ⟨S690000, .i32⟩
  | .hbm, ⟨52, _⟩ => ⟨S690000x1, .i32⟩
  | .hbm, ⟨53, _⟩ => ⟨S690000, .f32⟩
  | .hbm, ⟨54, _⟩ => ⟨S690000, .f32⟩
  | .hbm, ⟨55, _⟩ => ⟨S690000x1, .f32⟩
  | .hbm, ⟨56, _⟩ => ⟨S50000x256, .f32⟩
  | .hbm, ⟨57, _⟩ => ⟨S_, .i32⟩
  | .hbm, ⟨58, _⟩ => ⟨S690000, .i32⟩
  | .hbm, ⟨59, _⟩ => ⟨S690000, .i1⟩
  | .hbm, ⟨60, _⟩ => ⟨S_, .i32⟩
  | .hbm, ⟨61, _⟩ => ⟨S690000, .i32⟩
  | .hbm, ⟨62, _⟩ => ⟨S690000, .i32⟩
  | .hbm, ⟨63, _⟩ => ⟨S690000, .i32⟩
  | .hbm, ⟨64, _⟩ => ⟨S690000x1, .i32⟩
  | .hbm, ⟨65, _⟩ => ⟨S690000x256, .f32⟩
  | .hbm, ⟨66, _⟩ => ⟨S690000x256, .f32⟩
  | .hbm, ⟨67, _⟩ => ⟨S690000x256, .f32⟩
  | .hbm, ⟨68, _⟩ => ⟨S_, .f32⟩
  | .hbm, ⟨69, _⟩ => ⟨S50000x256, .f32⟩
  | .hbm, ⟨70, _⟩ => ⟨S_, .i32⟩
  | .hbm, ⟨71, _⟩ => ⟨S690000, .i32⟩
  | .hbm, ⟨72, _⟩ => ⟨S690000, .i1⟩
  | .hbm, ⟨73, _⟩ => ⟨S_, .i32⟩
  | .hbm, ⟨74, _⟩ => ⟨S690000, .i32⟩
  | .hbm, ⟨75, _⟩ => ⟨S690000, .i32⟩
  | .hbm, ⟨76, _⟩ => ⟨S690000, .i32⟩
  | .hbm, ⟨77, _⟩ => ⟨S690000x1, .i32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .i32⟩
  | .hbm, ⟨83, _⟩ => ⟨S690000, .i32⟩
  | .hbm, ⟨84, _⟩ => ⟨S690000, .i1⟩
  | .hbm, ⟨85, _⟩ => ⟨S_, .i32⟩
  | .hbm, ⟨86, _⟩ => ⟨S690000, .i32⟩
  | .hbm, ⟨87, _⟩ => ⟨S690000, .i32⟩
  | .hbm, ⟨88, _⟩ => ⟨S690000, .i32⟩
  | .hbm, ⟨89, _⟩ => ⟨S690000x1, .i32⟩
  | .hbm, ⟨90, _⟩ => ⟨S690000x256, .f32⟩
  | .hbm, ⟨91, _⟩ => ⟨S690000x256, .f32⟩
  | .hbm, ⟨92, _⟩ => ⟨S690000x256, .f32⟩
  | .hbm, ⟨93, _⟩ => ⟨S_, .f32⟩
  | .hbm, ⟨94, _⟩ => ⟨S50000x256, .f32⟩
  | .hbm, ⟨95, _⟩ => ⟨S_, .i32⟩
  | .hbm, ⟨96, _⟩ => ⟨S690000, .i32⟩
  | .hbm, ⟨97, _⟩ => ⟨S690000, .i1⟩
  | .hbm, ⟨98, _⟩ => ⟨S_, .i32⟩
  | .hbm, ⟨99, _⟩ => ⟨S690000, .i32⟩
  | .hbm, ⟨100, _⟩ => ⟨S690000, .i32⟩
  | .hbm, ⟨101, _⟩ => ⟨S690000, .i32⟩
  | .hbm, ⟨102, _⟩ => ⟨S690000x1, .i32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S1x256, .f32⟩
  | .hbm, ⟨108, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x128_S128x256_S2000x256_1_0_0_1_n_n_wf : DotDims.WF S2000x128 S128x256 S2000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S690000x256 : Shape := ⟨2, ![690000, 256]⟩
abbrev S1x256 : Shape := ⟨2, ![1, 256]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x640000, .i32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S690000, .i32⟩
  | .hbm, ⟨19, _⟩ => ⟨S690000, .i1⟩
  | .hbm, ⟨20, _⟩ => ⟨S_, .i32⟩
  | .hbm, ⟨21, _⟩ => ⟨S690000, .i32⟩
  | .hbm, ⟨22, _⟩ => ⟨S690000, .i32⟩
  | .hbm, ⟨23, _⟩ => ⟨S690000, .i32⟩
  | .hbm, ⟨24, _⟩ => ⟨S690000x1, .i32⟩
  | .hbm, ⟨25, _⟩ => ⟨S_, .f32⟩
  | .hbm, ⟨26, _⟩ => ⟨S690000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S_, .i32⟩
  | .hbm, ⟨46, _⟩ => ⟨S690000, .i32⟩
  | .hbm, ⟨47, _⟩ => ⟨S690000, .i1⟩
  | .hbm, ⟨48, _⟩ => ⟨S_, .i32⟩
  | .hbm, ⟨49, _⟩ => ⟨S690000, .i32⟩
  | .hbm, ⟨50, _⟩ => ⟨S690000, .i32⟩
  | .hbm, ⟨51, _⟩ => ⟨S690000, .i32⟩
  | .hbm, ⟨52, _⟩ => ⟨S690000x1, .i32⟩
  | .hbm, ⟨53, _⟩ => ⟨S690000, .f32⟩
  | .hbm, ⟨54, _⟩ => ⟨S690000, .f32⟩
  | .hbm, ⟨55, _⟩ => ⟨S50000x256, .f32⟩
  | .hbm, ⟨56, _⟩ => ⟨S_, .i32⟩
  | .hbm, ⟨57, _⟩ => ⟨S690000, .i32⟩
  | .hbm, ⟨58, _⟩ => ⟨S690000, .i1⟩
  | .hbm, ⟨59, _⟩ => ⟨S_, .i32⟩
  | .hbm, ⟨60, _⟩ => ⟨S690000, .i32⟩
  | .hbm, ⟨61, _⟩ => ⟨S690000, .i32⟩
  | .hbm, ⟨62, _⟩ => ⟨S690000, .i32⟩
  | .hbm, ⟨63, _⟩ => ⟨S690000x1, .i32⟩
  | .hbm, ⟨64, _⟩ => ⟨S690000x256, .f32⟩
  | .hbm, ⟨65, _⟩ => ⟨S690000x1, .f32⟩
  | .hbm, ⟨66, _⟩ => ⟨S690000x256, .f32⟩
  | .hbm, ⟨67, _⟩ => ⟨S690000x256, .f32⟩
  | .hbm, ⟨68, _⟩ => ⟨S_, .f32⟩
  | .hbm, ⟨69, _⟩ => ⟨S50000x256, .f32⟩
  | .hbm, ⟨70, _⟩ => ⟨S_, .i32⟩
  | .hbm, ⟨71, _⟩ => ⟨S690000, .i32⟩
  | .hbm, ⟨72, _⟩ => ⟨S690000, .i1⟩
  | .hbm, ⟨73, _⟩ => ⟨S_, .i32⟩
  | .hbm, ⟨74, _⟩ => ⟨S690000, .i32⟩
  | .hbm, ⟨75, _⟩ => ⟨S690000, .i32⟩
  | .hbm, ⟨76, _⟩ => ⟨S690000, .i32⟩
  | .hbm, ⟨77, _⟩ => ⟨S690000x1, .i32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .i32⟩
  | .hbm, ⟨85, _⟩ => ⟨S690000, .i32⟩
  | .hbm, ⟨86, _⟩ => ⟨S690000, .i1⟩
  | .hbm, ⟨87, _⟩ => ⟨S_, .i32⟩
  | .hbm, ⟨88, _⟩ => ⟨S690000, .i32⟩
  | .hbm, ⟨89, _⟩ => ⟨S690000, .i32⟩
  | .hbm, ⟨90, _⟩ => ⟨S690000, .i32⟩
  | .hbm, ⟨91, _⟩ => ⟨S690000x1, .i32⟩
  | .hbm, ⟨92, _⟩ => ⟨S690000x256, .f32⟩
  | .hbm, ⟨93, _⟩ => ⟨S690000x1, .f32⟩
  | .hbm, ⟨94, _⟩ => ⟨S690000x256, .f32⟩
  | .hbm, ⟨95, _⟩ => ⟨S690000x256, .f32⟩
  | .hbm, ⟨96, _⟩ => ⟨S_, .f32⟩
  | .hbm, ⟨97, _⟩ => ⟨S50000x256, .f32⟩
  | .hbm, ⟨98, _⟩ => ⟨S_, .i32⟩
  | .hbm, ⟨99, _⟩ => ⟨S690000, .i32⟩
  | .hbm, ⟨100, _⟩ => ⟨S690000, .i1⟩
  | .hbm, ⟨101, _⟩ => ⟨S_, .i32⟩
  | .hbm, ⟨102, _⟩ => ⟨S690000, .i32⟩
  | .hbm, ⟨103, _⟩ => ⟨S690000, .i32⟩
  | .hbm, ⟨104, _⟩ => ⟨S690000, .i32⟩
  | .hbm, ⟨105, _⟩ => ⟨S690000x1, .i32⟩
  | .hbm, ⟨106, _⟩ => ⟨S50000x256, .f32⟩
  | .hbm, ⟨107, _⟩ => ⟨S1x256, .f32⟩
  | .hbm, ⟨108, _⟩ => ⟨S50000x256, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x256_S50000x256_1_0_0_1_n_n_wf : DotDims.WF S50000x128 S128x256 S50000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S50000x256_S256x256_S50000x256_1_0_0_1_n_n_wf : DotDims.WF S50000x256 S256x256 S50000x256 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The network as functions of the argument arrays (what both programs compute, at any float instance).

  A graph convolution network over `N = 50000` nodes and `E = 640000` edges, each node given a self-loop:
  `src e` / `dst e` are the `690000` source / target endpoints (the edge list's two rows, then `0 … N-1`); `wrap` turns a
  vector of node numbers into an index column, a negative number counted from the end (`+ N`); `degOn d` counts how often
  a node is a target (a scatter-add of ones), `dinvOf g` is `g^(-1/2)` where `g > 0` and `0` elsewhere, `nrmOn s d v` is
  the edge weight `v[s]·v[d]`; `propOn s d w h` sends every node's row of `h`, scaled by the edge's weight (the column
  `w`), along every edge and sums what arrives at each node; `actRow a r` adds the bias row `r` to every row of `a` and takes
  the hyperbolic tangent. The network is two such layers, `act (prop (h · W)) b`, and a dense head `act (h · W) b`.
-/
import proofs.«144353_j32203664786076_1_alg».proof.Proof.Gen.ReferenceIdeal

noncomputable section

namespace Cert.Spec

open Cert.ReferenceIdeal Cert.ReferenceIdeal.Facts₀ Idealize.ShloMosaic

variable {F : FTy → Type} [FloatOps F]

/-- The edges' source endpoints, then the self-loops'. -/
def src (e : IVec S2x640000 32) : IVec S690000 32 :=
  concatenate S690000 0 [⟨S640000, (shapeCast _ (extractStridedSlice S1x640000 ![0, 0] e slices_S2x640000_S1x640000_0_0) shapeCasts_S1x640000_S640000)⟩, ⟨S50000, (iotaInDim S50000 32 0)⟩] concatenates_S640000_S50000_S690000_d0

/-- The edges' target endpoints, then the self-loops'. -/
def dst (e : IVec S2x640000 32) : IVec S690000 32 :=
  concatenate S690000 0 [⟨S640000, (shapeCast _ (extractStridedSlice S1x640000 ![1, 0] e slices_S2x640000_S1x640000_1_0) shapeCasts_S1x640000_S640000)⟩, ⟨S50000, (iotaInDim S50000 32 0)⟩] concatenates_S640000_S50000_S690000_d0

/-- Node numbers as an index column, a negative one counted from the end. -/
def wrap (v : IVec S690000 32) : IVec S690000x1 32 :=
  broadcastInDim S690000x1 ![0] bcast_S690000_S690000x1_0 (select (cmpi .slt v (broadcastInDim S690000 ![] bcast_S_S690000 (constantI S_ 32 0#32))) (addi v (broadcastInDim S690000 ![] bcast_S_S690000 (constantI S_ 32 50000#32))) v)

/-- How often each node is a target. -/
def degOn (d : IVec S690000 32) : FVec F S50000 .f32 :=
  Host.scatterAdd scatter_S50000_S690000x1_S690000_n_0_0_1 (broadcastInDim S50000 ![] bcast_S_S50000 (constant S_ .f32 0x00000000#32)) (wrap d) (broadcastInDim S690000 ![] bcast_S_S690000 (constant S_ .f32 0x3F800000#32))

/-- Is the degree positive. -/
def posOf (g : FVec F S50000 .f32) : IVec S50000 1 :=
  cmpf (F := F) .ogt g (broadcastInDim S50000 ![] bcast_S_S50000 (constant S_ .f32 0x00000000#32))

/-- The choice between the inverse square root and zero, the zero given as a scalar. -/
def pick (p : IVec S50000 1) (r : FVec F S50000 .f32) (z : FVec F S_ .f32) : FVec F S50000 .f32 :=
  select p r (broadcastInDim S50000 ![] bcast_S_S50000 (id z))

/-- `g^(-1/2)` where `g` is positive, `0` elsewhere. -/
def dinvOf (g : FVec F S50000 .f32) : FVec F S50000 .f32 :=
  pick (posOf g) (Host.rsqrt g) (constant S_ .f32 0x00000000#32)

/-- The edge weights `v[s]·v[d]`. -/
def nrmOn (s d : IVec S690000 32) (v : FVec F S50000 .f32) : FVec F S690000 .f32 :=
  mulf (Host.gather gather_S50000_S690000x1_S690000_n_0_n_n_0_1_1 v (wrap s)) (Host.gather gather_S50000_S690000x1_S690000_n_0_n_n_0_1_1 v (wrap d))

/-- A vector of edge weights as a column. -/
def colOf (n : FVec F S690000 .f32) : FVec F S690000x1 .f32 :=
  broadcastInDim S690000x1 ![0] bcast_S690000_S690000x1_0 n

/-- One round of message passing: gather the source rows, scale by the weight column, sum at the targets. -/
def propOn (s d : IVec S690000 32) (w : FVec F S690000x1 .f32) (h : FVec F S50000x256 .f32) : FVec F S50000x256 .f32 :=
  Host.scatterAdd scatter_S50000x256_S690000x1_S690000x256_1_0_0_1 (broadcastInDim S50000x256 ![] bcast_S_S50000x256 (constant S_ .f32 0x00000000#32)) (wrap d) (mulf (Host.gather gather_S50000x256_S690000x1_S690000x256_1_0_n_n_0_1_1256 h (wrap s)) (broadcastInDim S690000x256 ![0, 1] bcast_S690000x1_S690000x256_0_1 w))

/-- The weight column of the symmetric normalisation. -/
def wcol (e : IVec S2x640000 32) : FVec F S690000x1 .f32 :=
  colOf (nrmOn (src e) (dst e) (dinvOf (degOn (dst e))))

/-- One round of message passing with the symmetric normalisation. -/
def prop (e : IVec S2x640000 32) (h : FVec F S50000x256 .f32) : FVec F S50000x256 .f32 :=
  propOn (src e) (dst e) (wcol e) h

/-- A bias row added to every row, then `tanh`. -/
def actRow (a : FVec F S50000x256 .f32) (r : FVec F S1x256 .f32) : FVec F S50000x256 .f32 :=
  Host.tanh (addf a (broadcastInDim S50000x256 ![0, 1] bcast_S1x256_S50000x256_0_1 r))

/-- A bias vector as a `1×256` row. -/
def row (b : FVec F S256 .f32) : FVec F S1x256 .f32 := broadcastInDim S1x256 ![1] bcast_S256_S1x256_1 b

/-- A bias vector added to every row, then `tanh`. -/
def act (a : FVec F S50000x256 .f32) (b : FVec F S256 .f32) : FVec F S50000x256 .f32 := actRow a (row b)

/-- The input projection. -/
def proj0 (x : FVec F S50000x128 .f32) (w : FVec F S128x256 .f32) : FVec F S50000x256 .f32 :=
  Host.dotGeneral dot_S50000x128_S128x256_S50000x256_1_0_0_1_n_n none x w

/-- A hidden projection. -/
def proj (h : FVec F S50000x256 .f32) (w : FVec F S256x256 .f32) : FVec F S50000x256 .f32 :=
  Host.dotGeneral dot_S50000x256_S256x256_S50000x256_1_0_0_1_n_n none h w

/-- THE NETWORK: two graph-convolution layers and a dense head. -/
def net (x : FVec F S50000x128 .f32) (w0 : FVec F S128x256 .f32) (b0 : FVec F S256 .f32) (w1 : FVec F S256x256 .f32) (b1 : FVec F S256 .f32)
    (wf : FVec F S256x256 .f32) (bf : FVec F S256 .f32) (e : IVec S2x640000 32) : FVec F S50000x256 .f32 :=
  act (proj (act (prop e (proj (act (prop e (proj0 x w0)) b0) w1)) b1) wf) bf

end Cert.Spec

end
-- ==== Proof.KernelRun.lean ====
/-
  The idealized kernel's run, with EVERY buffer named at its end.

  @main is twelve segments: six stretches of host operations and six pallas_call regions. The contents of the
  TensorCore's buffers at each segment boundary are a fold from the launch memory: a host stretch maps the
  contents `W` to `StableHlo.after ops W`, a region maps them to `W` with each of its three arrays replaced
  by what the pipeline's write-backs leave (`Dat.arrAt w N`). The last boundary's contents are `Gen.W12`.

  `run_final` says: from any memory with zero counters every weakly fair execution of @main terminates, nothing
  faulting, and in the final state every unscoped buffer `b` of core `c` holds `Gen.W12 m ρ c b`. The frame
  conjunct keeps of this only the eight argument buffers; the value claim also needs the result buffer, so the run
  is stated here once for all of them.
-/
import proofs.«144353_j32203664786076_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and ends with every unscoped buffer at the last segment
    boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.RunVal

end
-- ==== Proof.KernelKeep.lean ====
/-
  What each stretch of host operations leaves unchanged.

  A stretch writes only its own result buffers (listed here, one list per stretch, in program order); a buffer that is not
  on the list holds after the stretch what it held before. With the regions' own statement of the same kind (a region
  changes only its three arrays) this carries the endpoint vectors, the weight column and the argument arrays from where
  they are made to where they are read.
-/
import proofs.«144353_j32203664786076_1_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The references the first stretch writes. -/
abbrev first_W : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_cst_3]
theorem first_writes : (hostOps0 : List (HloOp τ sig (Elt F))).Forall fun op => op.writes ⊆ (first_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the first stretch does not write keeps its contents over it. -/
theorem first_keeps (c : Dev nD) (r : Ref sig .tc) (h : r ∉ first_W) : W1 m ρ c (Proc.devRef .tc r) = W0 m ρ c (Proc.devRef .tc r) :=
  StableHlo.after_of_writes_sub hostOps0 _ first_writes h

/-- The references the second stretch writes. -/
abbrev second_W : List (Ref sig .tc) := [main_call0_v0, main_call0_v1, main_v19]
theorem second_writes : (hostOps0_1 : List (HloOp τ sig (Elt F))).Forall fun op => op.writes ⊆ (second_W.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the second stretch does not write keeps its contents over it. -/
theorem second_keeps (c : Dev nD) (r : Ref sig .tc) (h : r ∉ second_W) : W2 m ρ c (Proc.devRef .tc r) = W1 m ρ c (Proc.devRef .tc r) :=
  StableHlo.after_of_writes_sub hostOps0_1 _ second_writes h

/-- The references the third stretch writes. -/
abbrev third_W : List (Ref sig .tc) := [main_c_4, main_v20, main_v21, main_c_5, main_v22, main_v23, main_v24, main_v25, main_v26, main_c_6, main_v27, main_v28, main_c_7, main_v29, main_v30, main_v31, main_v32, main_v33, main_v34, main_v35]
theorem third_writes : (hostOps0_2 : List (HloOp τ sig (Elt F))).Forall fun op => op.writes ⊆ (third_W.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the third stretch does not write keeps its contents over it. -/
theorem third_keeps (c : Dev nD) (r : Ref sig .tc) (h : r ∉ third_W) : W3 m ρ c (Proc.devRef .tc r) = W2 m ρ c (Proc.devRef .tc r) :=
  StableHlo.after_of_writes_sub hostOps0_2 _ third_writes h

/-- The references the fourth stretch writes. -/
abbrev fourth_W : List (Ref sig .tc) := [main_c_8, main_v37, main_v38, main_c_9, main_v39, main_v40, main_v41, main_v42, main_v43, main_v44, main_v45, main_cst_10, main_v46, main_c_11, main_v47, main_v48, main_c_12, main_v49, main_v50, main_v51, main_v52, main_v53, main_v54]
theorem fourth_writes : (hostOps1 : List (HloOp τ sig (Elt F))).Forall fun op => op.writes ⊆ (fourth_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the fourth stretch does not write keeps its contents over it. -/
theorem fourth_keeps (c : Dev nD) (r : Ref sig .tc) (h : r ∉ fourth_W) : W5 m ρ c (Proc.devRef .tc r) = W4 m ρ c (Proc.devRef .tc r) :=
  StableHlo.after_of_writes_sub hostOps1 _ fourth_writes h

/-- The references the fifth stretch writes. -/
abbrev fifth_W : List (Ref sig .tc) := [main_c_13, main_v57, main_v58, main_c_14, main_v59, main_v60, main_v61, main_v62, main_v63, main_v64, main_v65, main_cst_15, main_v66, main_c_16, main_v67, main_v68, main_c_17, main_v69, main_v70, main_v71, main_v72, main_v73, main_v74]
theorem fifth_writes : (hostOps3 : List (HloOp τ sig (Elt F))).Forall fun op => op.writes ⊆ (fifth_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the fifth stretch does not write keeps its contents over it. -/
theorem fifth_keeps (c : Dev nD) (r : Ref sig .tc) (h : r ∉ fifth_W) : W8 m ρ c (Proc.devRef .tc r) = W7 m ρ c (Proc.devRef .tc r) :=
  StableHlo.after_of_writes_sub hostOps3 _ fifth_writes h

/-- The references the sixth stretch writes. -/
abbrev sixth_W : List (Ref sig .tc) := [main_v77]
theorem sixth_writes : (hostOps5 : List (HloOp τ sig (Elt F))).Forall fun op => op.writes ⊆ (sixth_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the sixth stretch does not write keeps its contents over it. -/
theorem sixth_keeps (c : Dev nD) (r : Ref sig .tc) (h : r ∉ sixth_W) : W11 m ρ c (Proc.devRef .tc r) = W10 m ρ c (Proc.devRef .tc r) :=
  StableHlo.after_of_writes_sub hostOps5 _ sixth_writes h

end Cert.KernelIdeal.Keep

end
-- ==== Proof.KernelHost.lean ====
/-
  The idealized kernel's six stretches of host operations, each read as ONE function of what it finds.

  For ANY contents `X` of the buffers when a stretch is entered, the buffers it writes that later segments read are the
  network's functions (Spec) of the buffers it reads: the first stretch builds the endpoint vectors, the degree's
  positivity test and inverse square root; the second chooses between that root and zero; the third forms the column of
  edge weights; the stretch after a projection's region passes its result along the edges and reshapes the layer's bias
  vector to a row; the last only reshapes the head's bias. A reshape of a `256`-vector to `1×256` is the same row as the
  host's `broadcast_in_dim` along axis 1 (`reshape_row`).
-/
import proofs.«144353_j32203664786076_1_alg».proof.Proof.Gen.KernelIdeal.Launch
import proofs.«144353_j32203664786076_1_alg».proof.Proof.Spec
import Idealize.ShloMosaic.Lib.StableHlo.Run
import Idealize.ShloMosaic.Lib.Pipeline.Value

set_option maxRecDepth 16384

noncomputable section

namespace Cert.KernelIdeal.HostVal

open Cert.KernelIdeal Cert.KernelIdeal.Gen Idealize.ShloMosaic Idealize.ShloMosaic.TcCoe Idealize.ShloMosaic.StableHlo Idealize.SL.Sem

variable {F : FTy → Type} [FloatOps F]
variable (X : Valuation τ sig (Elt F))

/-- A `256`-vector reshaped to a `1×256` row is the vector spread along axis 1. -/
theorem reshape_row (b : FVec F S256 .f32) (h : S256.ShapeCasts S1x256) : shapeCast S1x256 b h = Cert.Spec.row b := by
  funext j
  unfold Cert.Spec.row
  refine (shapeCast_addUnit_apply ![256] b h j).trans
    (broadcastInDim_apply _ Cert.ReferenceIdeal.Facts₀.bcast_S256_S1x256_1 b j (fun a => j a.succ) (fun a => ?_)).symm
  match a with
  | ⟨0, _⟩ => show (j 1).val = if (256 : Nat) = 1 then 0 else (j 1).val; rw [if_neg (by decide)]

/-! ## The first stretch: endpoints, degree test, inverse square root -/

theorem first_src : after hostOps0 X (Proc.devRef .tc main_v3) = Cert.Spec.src (X (Proc.devRef .tc main_arg7)) := by
  dsimp only [hostOps0]; after_results; rfl

theorem first_dst : after hostOps0 X (Proc.devRef .tc main_v6) = Cert.Spec.dst (X (Proc.devRef .tc main_arg7)) := by
  dsimp only [hostOps0]; after_results; rfl

set_option maxHeartbeats 4000000 in
theorem first_pos : after hostOps0 X (Proc.devRef .tc main_v17)
    = Cert.Spec.posOf (F := F) (Cert.Spec.degOn (Cert.Spec.dst (X (Proc.devRef .tc main_arg7)))) := by
  dsimp only [hostOps0]; after_results_simp; rfl

set_option maxHeartbeats 4000000 in
theorem first_rsqrt : after hostOps0 X (Proc.devRef .tc main_v18)
    = Host.rsqrt (Cert.Spec.degOn (F := F) (Cert.Spec.dst (X (Proc.devRef .tc main_arg7)))) := by
  dsimp only [hostOps0]; after_results_simp; rfl

theorem first_zero : after hostOps0 X (Proc.devRef .tc main_cst_3) = constant (F := F) Cert.ReferenceIdeal.S_ .f32 0x00000000#32 := by
  dsimp only [hostOps0]; after_results

/-! ## The second stretch: the inverse square root where the degree is positive -/

theorem second_pick : after hostOps0_1 X (Proc.devRef .tc main_v19)
    = Cert.Spec.pick (F := F) (X (Proc.devRef .tc main_v17)) (X (Proc.devRef .tc main_v18)) (X (Proc.devRef .tc main_cst_3)) := by
  dsimp only [hostOps0_1]; after_results; rfl

/-! ## The third stretch: the column of edge weights -/

set_option maxHeartbeats 4000000 in
theorem third_col : after hostOps0_2 X (Proc.devRef .tc main_v35)
    = Cert.Spec.colOf (F := F) (Cert.Spec.nrmOn (X (Proc.devRef .tc main_v3)) (X (Proc.devRef .tc main_v6)) (X (Proc.devRef .tc main_v19))) := by
  dsimp only [hostOps0_2]; after_results_simp; rfl

/-! ## After the layer-0 projection: message passing, and the bias as a row -/

set_option maxHeartbeats 4000000 in
theorem fourth_agg : after hostOps1 X (Proc.devRef .tc main_v53)
    = Cert.Spec.propOn (F := F) (X (Proc.devRef .tc main_v3)) (X (Proc.devRef .tc main_v6)) (X (Proc.devRef .tc main_v35)) (X (Proc.devRef .tc main_v36)) := by
  dsimp only [hostOps1]; after_results_simp; rfl

theorem fourth_row : after hostOps1 X (Proc.devRef .tc main_v54) = Cert.Spec.row (F := F) (X (Proc.devRef .tc main_arg2)) := by
  dsimp only [hostOps1]; after_results
  exact reshape_row _ _

/-! ## After the layer-1 projection: the same -/

set_option maxHeartbeats 4000000 in
theorem fifth_agg : after hostOps3 X (Proc.devRef .tc main_v73)
    = Cert.Spec.propOn (F := F) (X (Proc.devRef .tc main_v3)) (X (Proc.devRef .tc main_v6)) (X (Proc.devRef .tc main_v35)) (X (Proc.devRef .tc main_v56)) := by
  dsimp only [hostOps3]; after_results_simp; rfl

theorem fifth_row : after hostOps3 X (Proc.devRef .tc main_v74) = Cert.Spec.row (F := F) (X (Proc.devRef .tc main_arg4)) := by
  dsimp only [hostOps3]; after_results
  exact reshape_row _ _

/-! ## Before the head's bias region: the bias as a row -/

theorem sixth_row : after hostOps5 X (Proc.devRef .tc main_v77) = Cert.Spec.row (F := F) (X (Proc.devRef .tc main_arg6)) := by
  dsimp only [hostOps5]; after_results
  exact reshape_row _ _

end Cert.KernelIdeal.HostVal

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Bodies.lean ====
/-
  The two kernel bodies, read at an index, at the ideal values.

  A projection body loads a `2000×K` block of the activation and the whole `K×256` weight, rounds both to bf16
  (the identity on the extended reals) and multiplies them into a zero accumulator: entry `(p, q)` of what it stores is
  `Σ_k x[p,k]·w[k,q]`.

  A bias body loads a `2000×256` block and the `1×256` bias row, spreads the row over the 2000 rows, adds and takes the
  hyperbolic tangent: entry `(p, q)` of what it stores is `tanh (x[p,q] + b[0,q])`.
-/
import proofs.«144353_j32203664786076_1_alg».proof.Proof.Gen.KernelIdeal.Skeleton
import proofs.«144353_j32203664786076_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.TcCoe Idealize.ShloMosaic.ValueIdx

/-- Entry `(p, q)` of a `2000×K` by `K×256` product into zero, the operands rounded to bf16 first. -/
theorem mm128 (x : Vec Ideal S2000x128 .f32) (w : Vec Ideal S128x256 .f32) (p : Fin 2000) (q : Fin 256) :
    k0_pay1 (F := Ideal) x w (ix2 p q) = ∑ k : Fin 128, x (ix2 p k) * w (ix2 k q) := by
  unfold k0_pay1
  exact Cert.Lib.plain_matmul_zero_apply 2000 128 256 none
    (truncf .bf16 (x : FVec Ideal S2000x128 .f32) bitsLt_bf16_f32) (truncf .bf16 (w : FVec Ideal S128x256 .f32) bitsLt_bf16_f32) p q

theorem mm256_2 (x : Vec Ideal S2000x256 .f32) (w : Vec Ideal S256x256 .f32) (p : Fin 2000) (q : Fin 256) :
    k2_pay1 (F := Ideal) x w (ix2 p q) = ∑ k : Fin 256, x (ix2 p k) * w (ix2 k q) := by
  unfold k2_pay1
  rw [shapeCast_self]
  exact Cert.Lib.plain_matmul_zero_apply 2000 256 256 none
    (truncf .bf16 (x : FVec Ideal S2000x256 .f32) bitsLt_bf16_f32) (truncf .bf16 (w : FVec Ideal S256x256 .f32) bitsLt_bf16_f32) p q

theorem mm256_4 (x : Vec Ideal S2000x256 .f32) (w : Vec Ideal S256x256 .f32) (p : Fin 2000) (q : Fin 256) :
    k4_pay1 (F := Ideal) x w (ix2 p q) = ∑ k : Fin 256, x (ix2 p k) * w (ix2 k q) := by
  unfold k4_pay1
  rw [shapeCast_self]
  exact Cert.Lib.plain_matmul_zero_apply 2000 256 256 none
    (truncf .bf16 (x : FVec Ideal S2000x256 .f32) bitsLt_bf16_f32) (truncf .bf16 (w : FVec Ideal S256x256 .f32) bitsLt_bf16_f32) p q

/-- The bias row spread over the rows, read at `(p, q)`, is the row's entry `(0, q)`. -/
theorem row_spread (b : FVec Ideal S1x256 .f32) (h : S1x256.Broadcasts S2000x256) (p : Fin 2000) (q : Fin 256) :
    broadcastTo S2000x256 b h (ix2 p q) = b (ix2 0 q) :=
  broadcastTo_apply b h (ix2 p q) (ix2 0 q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

theorem bt1 (x : Vec Ideal S2000x256 .f32) (b : Vec Ideal S1x256 .f32) (p : Fin 2000) (q : Fin 256) :
    k1_pay1 (F := Ideal) x b (ix2 p q) = Ideal.tanh (x (ix2 p q) + b (ix2 0 q)) := by
  unfold k1_pay1
  rw [shapeCast_self, shapeCast_self]
  show Ideal.tanh (x (ix2 p q) + broadcastTo S2000x256 (b : FVec Ideal S1x256 .f32) broadcasts_S1x256_S2000x256 (ix2 p q)) = _
  rw [row_spread]

theorem bt3 (x : Vec Ideal S2000x256 .f32) (b : Vec Ideal S1x256 .f32) (p : Fin 2000) (q : Fin 256) :
    k3_pay1 (F := Ideal) x b (ix2 p q) = Ideal.tanh (x (ix2 p q) + b (ix2 0 q)) := by
  unfold k3_pay1
  rw [shapeCast_self, shapeCast_self]
  show Ideal.tanh (x (ix2 p q) + broadcastTo S2000x256 (b : FVec Ideal S1x256 .f32) broadcasts_S1x256_S2000x256 (ix2 p q)) = _
  rw [row_spread]

theorem bt5 (x : Vec Ideal S2000x256 .f32) (b : Vec Ideal S1x256 .f32) (p : Fin 2000) (q : Fin 256) :
    k5_pay1 (F := Ideal) x b (ix2 p q) = Ideal.tanh (x (ix2 p q) + b (ix2 0 q)) := by
  unfold k5_pay1
  rw [shapeCast_self, shapeCast_self]
  show Ideal.tanh (x (ix2 p q) + broadcastTo S2000x256 (b : FVec Ideal S1x256 .f32) broadcasts_S1x256_S2000x256 (ix2 p q)) = _
  rw [row_spread]

end Cert.KernelIdeal.Bodies

end
-- ==== Proof.Region0.lean ====
/-
  Region 0: the layer-0 projection `x · W0`, block by block, is the whole product.

  The pallas_call walks 25 grid points; point `t` fetches rows `2000·t … 2000·t + 1999` of the activation matrix
  and the whole `128×256` weight, and writes back rows `2000·t … 2000·t + 1999` of the result. A row of a matrix
  product depends only on the same row of the left factor, so what point `t` writes back IS block `t` of the one
  whole product `X · W` (`flushed_eq`); the 25 blocks tile the `50000×256` result — row `r` lies in block `r / 2000`
  (`cover`) — so after the region the result array holds `X · W` (`final`). All of it for ANY contents `V` of the
  buffers at the region's entry.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The whole product of the activation matrix and the weight, as the region finds them. -/
def whole (c : Dev nD) : Buf (Elt Ideal) ((c : Thread nD τ).loc main_v36) :=
  Host.dotGeneral (DotDims.plain 50000 128 256) none
    (show FVec Ideal S50000x128 .f32 from V c main_arg0) (show FVec Ideal S128x256 .f32 from V c main_arg1)

/-- A ROW BLOCK OF A PRODUCT IS THE PRODUCT OF THE ROW BLOCK: if row `p` of the block `x` is row `i 0` of `X`, and column `q`
    of `w` is column `i 1` of `W`, entry `(p, q)` of `x · w` is entry `i` of `X · W`. -/
theorem rows_of_product (X : FVec Ideal S50000x128 .f32) (W : FVec Ideal S128x256 .f32)
    (x : Vec Ideal S2000x128 .f32) (w : Vec Ideal S128x256 .f32) (i : S50000x256.Idx) (p : Fin 2000) (q : Fin 256)
    (hx : ∀ k : Fin 128, x (ix2 p k) = X (ix2 (i 0) k)) (hw : ∀ k : Fin 128, w (ix2 k q) = W (ix2 k (i 1))) :
    k0_pay1 (F := Ideal) x w (ix2 p q) = Host.dotGeneral (DotDims.plain 50000 128 256) none X W i := by
  refine (Bodies.mm128 x w p q).trans ?_
  refine Eq.trans ?_ ((congrArg (Host.dotGeneral (DotDims.plain 50000 128 256) none X W) (eq_ix2 i)).trans
    (Cert.Lib.plain_dotGeneral_apply 50000 128 256 none X W (i 0) (i 1))).symm
  exact Finset.sum_congr rfl fun k _ => by rw [hx k, hw k]

/-- The printed index maps, decided over the 25 grid points: the activation's block moves with the result's on the row axis,
    every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- WHAT POINT `t` WRITES BACK is block `t` of the whole product. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x256) zeros2]
  obtain ⟨e0, e1, e2, e3, e4⟩ := idx_facts t
  funext j
  show k0_pay1 (iblk0 V c 0 t) (iblk0 V c 1 t) j = whole V c (((cfg0.win 2).blk t).view.emb j)
  refine (congrArg (k0_pay1 (iblk0 V c 0 t) (iblk0 V c 1 t)) (eq_ix2 (n0 := 2000) (n1 := 256) j)).trans ?_
  refine rows_of_product (V c main_arg0) (V c main_arg1) (iblk0 V c 0 t) (iblk0 V c 1 t)
    (((cfg0.win 2).blk t).view.emb j) (j 0) (j 1) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg1 (((cfg0.win 1).blk t).view.emb (ix2 k (j 1))) = V c main_arg1 (ix2 k ((((cfg0.win 2).blk t).view.emb j) 1))
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v36).slice (win0_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE RESULT ARRAY after the region: the whole product. -/
theorem final (c : Dev nD) : (dat0 (F := Ideal) V c).arrAt 2 cfg0.N = whole V c :=
  (dat0 (F := Ideal) V c).arrAt_eq_of_cover 2 (whole V c) (fun t _ => flushed_eq V c t) (fun i => cover i)

end Cert.KernelIdeal.Region0

end
-- ==== Proof.Region1.lean ====
/-
  Region 1: the layer-0 activation `tanh (agg0 + b0)`, block by block, is the whole array.

  The pallas_call walks 25 grid points; point `t` fetches rows `2000·t … 2000·t + 1999` of the aggregated activation
  and the `1×256` bias row, and writes back the same rows of `tanh (a + bias)`. The operation is entry by entry, so what
  point `t` writes back IS block `t` of the one whole array `tanh (A + bias spread over the 50000 rows)`
  (`flushed_eq`); the 25 blocks tile the `50000×256` result (`cover`), so after the region the result array holds it
  (`final`). All of it for ANY contents `V` of the buffers at the region's entry. The spreading of the bias row is
  written as the host's `broadcast_in_dim` over axes `[0, 1]`, whose legality `hb` is a parameter.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))
variable (hb : S1x256.BroadcastsInDim S50000x256 (![0, 1] : Fin 2 → Fin S50000x256.rank))

theorem zeros2 : (![0, 0] : Fin 2 → Nat) = fun _ => 0 := funext fun a => by fin_cases a <;> rfl

/-- The bias row spread over the 50000 rows, read at `i`, is the row's entry `(0, i 1)`. -/
theorem row_bcast (B : FVec Ideal S1x256 .f32) (i : S50000x256.Idx) :
    broadcastInDim S50000x256 ![0, 1] hb B i = B (ix2 0 (i 1)) :=
  broadcastInDim_apply _ hb B i (ix2 0 (i 1)) (fun a => match a with
    | ⟨0, _⟩ => by show (0 : Nat) = if (1 : Nat) = 1 then 0 else (i 0).val; rw [if_pos rfl]
    | ⟨1, _⟩ => by show (i 1).val = if (256 : Nat) = 1 then 0 else (i 1).val; rw [if_neg (by decide)])

/-- The whole activation: `tanh (A + bias)`, the bias row spread over the rows. -/
def whole (c : Dev nD) : Buf (Elt Ideal) ((c : Thread nD τ).loc main_v55) :=
  Host.tanh (addf (show FVec Ideal S50000x256 .f32 from V c main_v53)
    (broadcastInDim S50000x256 ![0, 1] hb (show FVec Ideal S1x256 .f32 from V c main_v54)))

/-- ENTRY BY ENTRY: if entry `(p, q)` of the block `x` is entry `i` of `A`, and entry `(0, q)` of the row `b` is entry
    `(0, i 1)` of `B`, the body's entry `(p, q)` is entry `i` of `tanh (A + B spread)`. -/
theorem rows_of_act (A : FVec Ideal S50000x256 .f32) (B : FVec Ideal S1x256 .f32)
    (x : Vec Ideal S2000x256 .f32) (b : Vec Ideal S1x256 .f32) (i : S50000x256.Idx) (p : Fin 2000) (q : Fin 256)
    (hx : x (ix2 p q) = A i) (hbq : b (ix2 0 q) = B (ix2 0 (i 1))) :
    k1_pay1 (F := Ideal) x b (ix2 p q) = Host.tanh (addf A (broadcastInDim S50000x256 ![0, 1] hb B)) i := by
  refine (Bodies.bt1 x b p q).trans ?_
  show Ideal.tanh (x (ix2 p q) + b (ix2 0 q)) = Ideal.tanh (A i + broadcastInDim S50000x256 ![0, 1] hb B i)
  rw [hx, hbq, row_bcast hb B i]

/-- The printed index maps, decided over the 25 grid points: the input block moves with the result's on the row axis,
    every other block index is 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- WHAT POINT `t` WRITES BACK is block `t` of the whole activation. -/
theorem flushed_eq (c : Dev nD) (t : Fin cfg1.N) :
    (dat1 (F := Ideal) V c).flushed 2 t = ((cfg1.win 2).blk t).view.read (Elt Ideal) (whole V hb c) := by
  show (cfg1.win 2).cut (grid1.coords t) ((dat1 V c).after 2 t) = _
  rw [after1_2]
  unfold out1_2
  rw [View.canon_unit_zero zeros2]
  simp only [View.ld_unit_zero (S := S2000x256) zeros2, View.ld_unit_zero (S := S1x256) zeros2]
  obtain ⟨e0, e1, e2, e3, e4⟩ := idx_facts t
  funext j
  show k1_pay1 (iblk1 V c 0 t) (iblk1 V c 1 t) j = whole V hb c (((cfg1.win 2).blk t).view.emb j)
  refine (congrArg (k1_pay1 (iblk1 V c 0 t) (iblk1 V c 1 t)) (eq_ix2 (n0 := 2000) (n1 := 256) j)).trans ?_
  refine rows_of_act hb (V c main_v53) (V c main_v54) (iblk1 V c 0 t) (iblk1 V c 1 t)
    (((cfg1.win 2).blk t).view.emb j) (j 0) (j 1) ?_ ?_
  · show V c main_v53 (((cfg1.win 0).blk t).view.emb (ix2 (j 0) (j 1))) = V c main_v53 (((cfg1.win 2).blk t).view.emb j)
    refine congrArg (V c main_v53) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  · show V c main_v54 (((cfg1.win 1).blk t).view.emb (ix2 0 (j 1))) = V c main_v54 (ix2 0 ((((cfg1.win 2).blk t).view.emb j) 1))
    refine congrArg (V c main_v54) (funext fun a => Fin.ext ?_)
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega

/-- An index of the result is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v55).slice (win1_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE RESULT ARRAY after the region: the whole activation. -/
theorem final (c : Dev nD) : (dat1 (F := Ideal) V c).arrAt 2 cfg1.N = whole V hb c :=
  (dat1 (F := Ideal) V c).arrAt_eq_of_cover 2 (whole V hb c) (fun t _ => flushed_eq V hb c t) (fun i => cover i)

end Cert.KernelIdeal.Region1

end
-- ==== Proof.Region2.lean ====
/-
  Region 2: the layer-1 projection `h · W1`, block by block, is the whole product.

  The pallas_call walks 25 grid points; point `t` fetches rows `2000·t … 2000·t + 1999` of the activation matrix
  and the whole `256×256` weight, and writes back rows `2000·t … 2000·t + 1999` of the result. A row of a matrix
  product depends only on the same row of the left factor, so what point `t` writes back IS block `t` of the one
  whole product `X · W` (`flushed_eq`); the 25 blocks tile the `50000×256` result — row `r` lies in block `r / 2000`
  (`cover`) — so after the region the result array holds `X · W` (`final`). All of it for ANY contents `V` of the
  buffers at the region's entry.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The whole product of the activation matrix and the weight, as the region finds them. -/
def whole (c : Dev nD) : Buf (Elt Ideal) ((c : Thread nD τ).loc main_v56) :=
  Host.dotGeneral (DotDims.plain 50000 256 256) none
    (show FVec Ideal S50000x256 .f32 from V c main_v55) (show FVec Ideal S256x256 .f32 from V c main_arg3)

/-- A ROW BLOCK OF A PRODUCT IS THE PRODUCT OF THE ROW BLOCK: if row `p` of the block `x` is row `i 0` of `X`, and column `q`
    of `w` is column `i 1` of `W`, entry `(p, q)` of `x · w` is entry `i` of `X · W`. -/
theorem rows_of_product (X : FVec Ideal S50000x256 .f32) (W : FVec Ideal S256x256 .f32)
    (x : Vec Ideal S2000x256 .f32) (w : Vec Ideal S256x256 .f32) (i : S50000x256.Idx) (p : Fin 2000) (q : Fin 256)
    (hx : ∀ k : Fin 256, x (ix2 p k) = X (ix2 (i 0) k)) (hw : ∀ k : Fin 256, w (ix2 k q) = W (ix2 k (i 1))) :
    k2_pay1 (F := Ideal) x w (ix2 p q) = Host.dotGeneral (DotDims.plain 50000 256 256) none X W i := by
  refine (Bodies.mm256_2 x w p q).trans ?_
  refine Eq.trans ?_ ((congrArg (Host.dotGeneral (DotDims.plain 50000 256 256) none X W) (eq_ix2 i)).trans
    (Cert.Lib.plain_dotGeneral_apply 50000 256 256 none X W (i 0) (i 1))).symm
  exact Finset.sum_congr rfl fun k _ => by rw [hx k, hw k]

/-- The printed index maps, decided over the 25 grid points: the activation's block moves with the result's on the row axis,
    every other block index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- WHAT POINT `t` WRITES BACK is block `t` of the whole product. -/
theorem flushed_eq (c : Dev nD) (t : Fin cfg2.N) :
    (dat2 (F := Ideal) V c).flushed 2 t = ((cfg2.win 2).blk t).view.read (Elt Ideal) (whole V c) := by
  show (cfg2.win 2).cut (grid2.coords t) ((dat2 V c).after 2 t) = _
  rw [after2_2]
  unfold out2_2
  rw [View.canon_unit_zero zeros2]
  simp only [View.ld_unit_zero (S := S2000x256) zeros2, View.ld_unit_zero (S := S256x256) zeros2]
  obtain ⟨e0, e1, e2, e3, e4⟩ := idx_facts t
  funext j
  show k2_pay1 (iblk2 V c 0 t) (iblk2 V c 1 t) j = whole V c (((cfg2.win 2).blk t).view.emb j)
  refine (congrArg (k2_pay1 (iblk2 V c 0 t) (iblk2 V c 1 t)) (eq_ix2 (n0 := 2000) (n1 := 256) j)).trans ?_
  refine rows_of_product (V c main_v55) (V c main_arg3) (iblk2 V c 0 t) (iblk2 V c 1 t)
    (((cfg2.win 2).blk t).view.emb j) (j 0) (j 1) (fun k => ?_) (fun k => ?_)
  · show V c main_v55 (((cfg2.win 0).blk t).view.emb (ix2 (j 0) k)) = V c main_v55 (ix2 ((((cfg2.win 2).blk t).view.emb j) 0) k)
    refine congrArg (V c main_v55) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · show V c main_arg3 (((cfg2.win 1).blk t).view.emb (ix2 k (j 1))) = V c main_arg3 (ix2 k ((((cfg2.win 2).blk t).view.emb j) 1))
    refine congrArg (V c main_arg3) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An index of the result is in point `t`'s block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v56).slice (win2_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- THE RESULT ARRAY after the region: the whole product. -/
theorem final (c : Dev nD) : (dat2 (F := Ideal) V c).arrAt 2 cfg2.N = whole V c :=
  (dat2 (F := Ideal) V c).arrAt_eq_of_cover 2 (whole V c) (fun t _ => flushed_eq V c t) (fun i => cover i)

end Cert.KernelIdeal.Region2

end
-- ==== Proof.Region3.lean ====
/-
  Region 3: the layer-1 activation `tanh (agg1 + b1)`, block by block, is the whole array.

  The pallas_call walks 25 grid points; point `t` fetches rows `2000·t … 2000·t + 1999` of the aggregated activation
  and the `1×256` bias row, and writes back the same rows of `tanh (a + bias)`. The operation is entry by entry, so what
  point `t` writes back IS block `t` of the one whole array `tanh (A + bias spread over the 50000 rows)`
  (`flushed_eq`); the 25 blocks tile the `50000×256` result (`cover`), so after the region the result array holds it
  (`final`). All of it for ANY contents `V` of the buffers at the region's entry. The spreading of the bias row is
  written as the host's `broadcast_in_dim` over axes `[0, 1]`, whose legality `hb` is a parameter.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))
variable (hb : S1x256.BroadcastsInDim S50000x256 (![0, 1] : Fin 2 → Fin S50000x256.rank))

theorem zeros2 : (![0, 0] : Fin 2 → Nat) = fun _ => 0 := funext fun a => by fin_cases a <;> rfl

/-- The bias row spread over the 50000 rows, read at `i`, is the row's entry `(0, i 1)`. -/
theorem row_bcast (B : FVec Ideal S1x256 .f32) (i : S50000x256.Idx) :
    broadcastInDim S50000x256 ![0, 1] hb B i = B (ix2 0 (i 1)) :=
  broadcastInDim_apply _ hb B i (ix2 0 (i 1)) (fun a => match a with
    | ⟨0, _⟩ => by show (0 : Nat) = if (1 : Nat) = 1 then 0 else (i 0).val; rw [if_pos rfl]
    | ⟨1, _⟩ => by show (i 1).val = if (256 : Nat) = 1 then 0 else (i 1).val; rw [if_neg (by decide)])

/-- The whole activation: `tanh (A + bias)`, the bias row spread over the rows. -/
def whole (c : Dev nD) : Buf (Elt Ideal) ((c : Thread nD τ).loc main_v75) :=
  Host.tanh (addf (show FVec Ideal S50000x256 .f32 from V c main_v73)
    (broadcastInDim S50000x256 ![0, 1] hb (show FVec Ideal S1x256 .f32 from V c main_v74)))

/-- ENTRY BY ENTRY: if entry `(p, q)` of the block `x` is entry `i` of `A`, and entry `(0, q)` of the row `b` is entry
    `(0, i 1)` of `B`, the body's entry `(p, q)` is entry `i` of `tanh (A + B spread)`. -/
theorem rows_of_act (A : FVec Ideal S50000x256 .f32) (B : FVec Ideal S1x256 .f32)
    (x : Vec Ideal S2000x256 .f32) (b : Vec Ideal S1x256 .f32) (i : S50000x256.Idx) (p : Fin 2000) (q : Fin 256)
    (hx : x (ix2 p q) = A i) (hbq : b (ix2 0 q) = B (ix2 0 (i 1))) :
    k3_pay1 (F := Ideal) x b (ix2 p q) = Host.tanh (addf A (broadcastInDim S50000x256 ![0, 1] hb B)) i := by
  refine (Bodies.bt3 x b p q).trans ?_
  show Ideal.tanh (x (ix2 p q) + b (ix2 0 q)) = Ideal.tanh (A i + broadcastInDim S50000x256 ![0, 1] hb B i)
  rw [hx, hbq, row_bcast hb B i]

/-- The printed index maps, decided over the 25 grid points: the input block moves with the result's on the row axis,
    every other block index is 0. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every row block is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- WHAT POINT `t` WRITES BACK is block `t` of the whole activation. -/
theorem flushed_eq (c : Dev nD) (t : Fin cfg3.N) :
    (dat3 (F := Ideal) V c).flushed 2 t = ((cfg3.win 2).blk t).view.read (Elt Ideal) (whole V hb c) := by
  show (cfg3.win 2).cut (grid3.coords t) ((dat3 V c).after 2 t) = _
  rw [after3_2]
  unfold out3_2
  rw [View.canon_unit_zero zeros2]
  simp only [View.ld_unit_zero (S := S2000x256) zeros2, View.ld_unit_zero (S := S1x256) zeros2]
  obtain ⟨e0, e1, e2, e3, e4⟩ := idx_facts t
  funext j
  show k3_pay1 (iblk3 V c 0 t) (iblk3 V c 1 t) j = whole V hb c (((cfg3.win 2).blk t).view.emb j)
  refine (congrArg (k3_pay1 (iblk3 V c 0 t) (iblk3 V c 1 t)) (eq_ix2 (n0 := 2000) (n1 := 256) j)).trans ?_
  refine rows_of_act hb (V c main_v73) (V c main_v74) (iblk3 V c 0 t) (iblk3 V c 1 t)
    (((cfg3.win 2).blk t).view.emb j) (j 0) (j 1) ?_ ?_
  · show V c main_v73 (((cfg3.win 0).blk t).view.emb (ix2 (j 0) (j 1))) = V c main_v73 (((cfg3.win 2).blk t).view.emb j)
    refine congrArg (V c main_v73) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * (j 1).val = win3_2.index t (1 : Fin 2) * 256 + 1 * (j 1).val; omega
  · show V c main_v74 (((cfg3.win 1).blk t).view.emb (ix2 0 (j 1))) = V c main_v74 (ix2 0 ((((cfg3.win 2).blk t).view.emb j) 1))
    refine congrArg (V c main_v74) (funext fun a => Fin.ext ?_)
    match a with
    | ⟨0, _⟩ => show win3_1.index t (0 : Fin 2) * 1 + 1 * 0 = 0; omega
    | ⟨1, _⟩ => show win3_1.index t (1 : Fin 2) * 256 + 1 * (j 1).val = win3_2.index t (1 : Fin 2) * 256 + 1 * (j 1).val; omega

/-- An index of the result is in point `t`'s block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v75).slice (win3_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- THE RESULT ARRAY after the region: the whole activation. -/
theorem final (c : Dev nD) : (dat3 (F := Ideal) V c).arrAt 2 cfg3.N = whole V hb c :=
  (dat3 (F := Ideal) V c).arrAt_eq_of_cover 2 (whole V hb c) (fun t _ => flushed_eq V hb c t) (fun i => cover i)

end Cert.KernelIdeal.Region3

end
-- ==== Proof.Region4.lean ====
/-
  Region 4: the head's projection `h · fc_w`, block by block, is the whole product.

  The pallas_call walks 25 grid points; point `t` fetches rows `2000·t … 2000·t + 1999` of the activation matrix
  and the whole `256×256` weight, and writes back rows `2000·t … 2000·t + 1999` of the result. A row of a matrix
  product depends only on the same row of the left factor, so what point `t` writes back IS block `t` of the one
  whole product `X · W` (`flushed_eq`); the 25 blocks tile the `50000×256` result — row `r` lies in block `r / 2000`
  (`cover`) — so after the region the result array holds `X · W` (`final`). All of it for ANY contents `V` of the
  buffers at the region's entry.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The whole product of the activation matrix and the weight, as the region finds them. -/
def whole (c : Dev nD) : Buf (Elt Ideal) ((c : Thread nD τ).loc main_v76) :=
  Host.dotGeneral (DotDims.plain 50000 256 256) none
    (show FVec Ideal S50000x256 .f32 from V c main_v75) (show FVec Ideal S256x256 .f32 from V c main_arg5)

/-- A ROW BLOCK OF A PRODUCT IS THE PRODUCT OF THE ROW BLOCK: if row `p` of the block `x` is row `i 0` of `X`, and column `q`
    of `w` is column `i 1` of `W`, entry `(p, q)` of `x · w` is entry `i` of `X · W`. -/
theorem rows_of_product (X : FVec Ideal S50000x256 .f32) (W : FVec Ideal S256x256 .f32)
    (x : Vec Ideal S2000x256 .f32) (w : Vec Ideal S256x256 .f32) (i : S50000x256.Idx) (p : Fin 2000) (q : Fin 256)
    (hx : ∀ k : Fin 256, x (ix2 p k) = X (ix2 (i 0) k)) (hw : ∀ k : Fin 256, w (ix2 k q) = W (ix2 k (i 1))) :
    k4_pay1 (F := Ideal) x w (ix2 p q) = Host.dotGeneral (DotDims.plain 50000 256 256) none X W i := by
  refine (Bodies.mm256_4 x w p q).trans ?_
  refine Eq.trans ?_ ((congrArg (Host.dotGeneral (DotDims.plain 50000 256 256) none X W) (eq_ix2 i)).trans
    (Cert.Lib.plain_dotGeneral_apply 50000 256 256 none X W (i 0) (i 1))).symm
  exact Finset.sum_congr rfl fun k _ => by rw [hx k, hw k]

/-- The printed index maps, decided over the 25 grid points: the activation's block moves with the result's on the row axis,
    every other block index is 0. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- Every row block is some point's. -/
theorem idx_onto : ∀ q0 : Fin 25, ∃ t : Fin cfg4.N, win4_2.index t = ![q0.val, 0] :=
  (by decide +kernel : ∀ q0 : Fin 25, ∃ t : Fin grid4.N, win4_2.index t = ![q0.val, 0])

/-- WHAT POINT `t` WRITES BACK is block `t` of the whole product. -/
theorem flushed_eq (c : Dev nD) (t : Fin cfg4.N) :
    (dat4 (F := Ideal) V c).flushed 2 t = ((cfg4.win 2).blk t).view.read (Elt Ideal) (whole V c) := by
  show (cfg4.win 2).cut (grid4.coords t) ((dat4 V c).after 2 t) = _
  rw [after4_2]
  unfold out4_2
  rw [View.canon_unit_zero zeros2]
  simp only [View.ld_unit_zero (S := S2000x256) zeros2, View.ld_unit_zero (S := S256x256) zeros2]
  obtain ⟨e0, e1, e2, e3, e4⟩ := idx_facts t
  funext j
  show k4_pay1 (iblk4 V c 0 t) (iblk4 V c 1 t) j = whole V c (((cfg4.win 2).blk t).view.emb j)
  refine (congrArg (k4_pay1 (iblk4 V c 0 t) (iblk4 V c 1 t)) (eq_ix2 (n0 := 2000) (n1 := 256) j)).trans ?_
  refine rows_of_product (V c main_v75) (V c main_arg5) (iblk4 V c 0 t) (iblk4 V c 1 t)
    (((cfg4.win 2).blk t).view.emb j) (j 0) (j 1) (fun k => ?_) (fun k => ?_)
  · show V c main_v75 (((cfg4.win 0).blk t).view.emb (ix2 (j 0) k)) = V c main_v75 (ix2 ((((cfg4.win 2).blk t).view.emb j) 0) k)
    refine congrArg (V c main_v75) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  · show V c main_arg5 (((cfg4.win 1).blk t).view.emb (ix2 k (j 1))) = V c main_arg5 (ix2 k ((((cfg4.win 2).blk t).view.emb j) 1))
    refine congrArg (V c main_arg5) (funext fun a => Fin.ext ?_)
    match a with
    | ⟨0, _⟩ => show win4_1.index t (0 : Fin 2) * 256 + 1 * k.val = k.val; omega
    | ⟨1, _⟩ => show win4_1.index t (1 : Fin 2) * 256 + 1 * (j 1).val = win4_2.index t (1 : Fin 2) * 256 + 1 * (j 1).val; omega

/-- An index of the result is in point `t`'s block iff each coordinate is in the block's range on its axis. -/
theorem mem_blk (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v76).slice (win4_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- THE RESULT ARRAY after the region: the whole product. -/
theorem final (c : Dev nD) : (dat4 (F := Ideal) V c).arrAt 2 cfg4.N = whole V c :=
  (dat4 (F := Ideal) V c).arrAt_eq_of_cover 2 (whole V c) (fun t _ => flushed_eq V c t) (fun i => cover i)

end Cert.KernelIdeal.Region4

end
-- ==== Proof.Region5.lean ====
/-
  Region 5: the head's activation `tanh (h2 + fc_b)`, block by block, is the whole array.

  The pallas_call walks 25 grid points; point `t` fetches rows `2000·t … 2000·t + 1999` of the aggregated activation
  and the `1×256` bias row, and writes back the same rows of `tanh (a + bias)`. The operation is entry by entry, so what
  point `t` writes back IS block `t` of the one whole array `tanh (A + bias spread over the 50000 rows)`
  (`flushed_eq`); the 25 blocks tile the `50000×256` result (`cover`), so after the region the result array holds it
  (`final`). All of it for ANY contents `V` of the buffers at the region's entry. The spreading of the bias row is
  written as the host's `broadcast_in_dim` over axes `[0, 1]`, whose legality `hb` is a parameter.
-/
import proofs.«144353_j32203664786076_1_alg».proof.Proof.Gen.KernelIdeal.Frame
import proofs.«144353_j32203664786076_1_alg».proof.Proof.Bodies
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))
variable (hb : S1x256.BroadcastsInDim S50000x256 (![0, 1] : Fin 2 → Fin S50000x256.rank))

theorem zeros2 : (![0, 0] : Fin 2 → Nat) = fun _ => 0 := funext fun a => by fin_cases a <;> rfl

/-- The bias row spread over the 50000 rows, read at `i`, is the row's entry `(0, i 1)`. -/
theorem row_bcast (B : FVec Ideal S1x256 .f32) (i : S50000x256.Idx) :
    broadcastInDim S50000x256 ![0, 1] hb B i = B (ix2 0 (i 1)) :=
  broadcastInDim_apply _ hb B i (ix2 0 (i 1)) (fun a => match a with
    | ⟨0, _⟩ => by show (0 : Nat) = if (1 : Nat) = 1 then 0 else (i 0).val; rw [if_pos rfl]
    | ⟨1, _⟩ => by show (i 1).val = if (256 : Nat) = 1 then 0 else (i 1).val; rw [if_neg (by decide)])

/-- The whole activation: `tanh (A + bias)`, the bias row spread over the rows. -/
def whole (c : Dev nD) : Buf (Elt Ideal) ((c : Thread nD τ).loc main_v78) :=
  Host.tanh (addf (show FVec Ideal S50000x256 .f32 from V c main_v76)
    (broadcastInDim S50000x256 ![0, 1] hb (show FVec Ideal S1x256 .f32 from V c main_v77)))

/-- ENTRY BY ENTRY: if entry `(p, q)` of the block `x` is entry `i` of `A`, and entry `(0, q)` of the row `b` is entry
    `(0, i 1)` of `B`, the body's entry `(p, q)` is entry `i` of `tanh (A + B spread)`. -/
theorem rows_of_act (A : FVec Ideal S50000x256 .f32) (B : FVec Ideal S1x256 .f32)
    (x : Vec Ideal S2000x256 .f32) (b : Vec Ideal S1x256 .f32) (i : S50000x256.Idx) (p : Fin 2000) (q : Fin 256)
    (hx : x (ix2 p q) = A i) (hbq : b (ix2 0 q) = B (ix2 0 (i 1))) :
    k5_pay1 (F := Ideal) x b (ix2 p q) = Host.tanh (addf A (broadcastInDim S50000x256 ![0, 1] hb B)) i := by
  refine (Bodies.bt5 x b p q).trans ?_
  show Ideal.tanh (x (ix2 p q) + b (ix2 0 q)) = Ideal.tanh (A i + broadcastInDim S50000x256 ![0, 1] hb B i)
  rw [hx, hbq, row_bcast hb B i]

/-- The printed index maps, decided over the 25 grid points: the input block moves with the result's on the row axis,
    every other block index is 0. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 :=
  (by decide +kernel : ∀ t : Fin grid5.N, _)

/-- Every row block is some point's. -/
theorem idx_onto : ∀ q0 : Fin 25, ∃ t : Fin cfg5.N, win5_2.index t = ![q0.val, 0] :=
  (by decide +kernel : ∀ q0 : Fin 25, ∃ t : Fin grid5.N, win5_2.index t = ![q0.val, 0])

/-- WHAT POINT `t` WRITES BACK is block `t` of the whole activation. -/
theorem flushed_eq (c : Dev nD) (t : Fin cfg5.N) :
    (dat5 (F := Ideal) V c).flushed 2 t = ((cfg5.win 2).blk t).view.read (Elt Ideal) (whole V hb c) := by
  show (cfg5.win 2).cut (grid5.coords t) ((dat5 V c).after 2 t) = _
  rw [after5_2]
  unfold out5_2
  rw [View.canon_unit_zero zeros2]
  simp only [View.ld_unit_zero (S := S2000x256) zeros2, View.ld_unit_zero (S := S1x256) zeros2]
  obtain ⟨e0, e1, e2, e3, e4⟩ := idx_facts t
  funext j
  show k5_pay1 (iblk5 V c 0 t) (iblk5 V c 1 t) j = whole V hb c (((cfg5.win 2).blk t).view.emb j)
  refine (congrArg (k5_pay1 (iblk5 V c 0 t) (iblk5 V c 1 t)) (eq_ix2 (n0 := 2000) (n1 := 256) j)).trans ?_
  refine rows_of_act hb (V c main_v76) (V c main_v77) (iblk5 V c 0 t) (iblk5 V c 1 t)
    (((cfg5.win 2).blk t).view.emb j) (j 0) (j 1) ?_ ?_
  · show V c main_v76 (((cfg5.win 0).blk t).view.emb (ix2 (j 0) (j 1))) = V c main_v76 (((cfg5.win 2).blk t).view.emb j)
    refine congrArg (V c main_v76) (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 256 + 1 * (j 1).val = win5_2.index t (1 : Fin 2) * 256 + 1 * (j 1).val; omega
  · show V c main_v77 (((cfg5.win 1).blk t).view.emb (ix2 0 (j 1))) = V c main_v77 (ix2 0 ((((cfg5.win 2).blk t).view.emb j) 1))
    refine congrArg (V c main_v77) (funext fun a => Fin.ext ?_)
    match a with
    | ⟨0, _⟩ => show win5_1.index t (0 : Fin 2) * 1 + 1 * 0 = 0; omega
    | ⟨1, _⟩ => show win5_1.index t (1 : Fin 2) * 256 + 1 * (j 1).val = win5_2.index t (1 : Fin 2) * 256 + 1 * (j 1).val; omega

/-- An index of the result is in point `t`'s block iff each coordinate is in the block's range on its axis. -/
theorem mem_blk (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v78).slice (win5_2.rect t)).set ↔ _
  rw [View.set_slice_whole, Rect.mem_set_unit]
  exact Iff.rfl

/-- THE BLOCKS TILE THE RESULT: row `r` is in the block of point `r / 2000`. -/
theorem cover (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- THE RESULT ARRAY after the region: the whole activation. -/
theorem final (c : Dev nD) : (dat5 (F := Ideal) V c).arrAt 2 cfg5.N = whole V hb c :=
  (dat5 (F := Ideal) V c).arrAt_eq_of_cover 2 (whole V hb c) (fun t _ => flushed_eq V hb c t) (fun i => cover i)

end Cert.KernelIdeal.Region5

end
-- ==== Proof.KernelValue.lean ====
/-
  The idealized kernel's result array is the network of its argument arrays.

  Boundary by boundary through @main: the first three stretches leave the endpoint vectors `src e`, `dst e` and the column
  of edge weights `wcol e`; the first region leaves `x · W0` (its blocks tile the whole product); the next stretch passes
  it along the edges and lays the bias out as a row; the second region adds the bias row and takes `tanh`; and so on through
  the second layer and the head. Buffers made early and read late (the endpoints, the weight column, the later layers'
  arguments) are carried over the segments in between, none of which writes them.
-/
import proofs.«144353_j32203664786076_1_alg».proof.Proof.KernelKeep
import proofs.«144353_j32203664786076_1_alg».proof.Proof.KernelHost
import proofs.«144353_j32203664786076_1_alg».proof.Proof.Region0
import proofs.«144353_j32203664786076_1_alg».proof.Proof.Region1
import proofs.«144353_j32203664786076_1_alg».proof.Proof.Region2
import proofs.«144353_j32203664786076_1_alg».proof.Proof.Region3
import proofs.«144353_j32203664786076_1_alg».proof.Proof.Region4
import proofs.«144353_j32203664786076_1_alg».proof.Proof.Region5

set_option maxRecDepth 16384

noncomputable section

namespace Cert.KernelIdeal.NetVal

open Cert.KernelIdeal Cert.KernelIdeal.Gen Idealize.ShloMosaic Idealize.ShloMosaic.TcCoe Idealize.SL.Sem
open Cert.Spec (src dst wcol prop act row proj0 proj net)

variable (m : (ℓ : Loc nD τ sig) → Buf (Elt Ideal) ℓ) (ρ : Dev nD → PrngReg) (c : Dev nD)

/-- The legality of spreading a `1×256` row over `50000` rows. -/
abbrev hrow := Cert.ReferenceIdeal.Facts₀.bcast_S1x256_S50000x256_0_1

/-! ## The arguments, wherever they are read, are as launched -/

theorem at3 (r : Ref sig .tc) (h1 : r ∉ Keep.first_W) (h2 : r ∉ Keep.second_W) (h3 : r ∉ Keep.third_W) :
    W3 m ρ c (Proc.devRef .tc r) = W0 m ρ c (Proc.devRef .tc r) :=
  (Keep.third_keeps m ρ c r h3).trans ((Keep.second_keeps m ρ c r h2).trans (Keep.first_keeps m ρ c r h1))

theorem arg0_3 : W3 m ρ c (Proc.devRef .tc main_arg0) = (m ((c : Thread nD τ).loc main_arg0)) := at3 m ρ c main_arg0 (by decide) (by decide) (by decide)
theorem arg1_3 : W3 m ρ c (Proc.devRef .tc main_arg1) = (m ((c : Thread nD τ).loc main_arg1)) := at3 m ρ c main_arg1 (by decide) (by decide) (by decide)
theorem arg2_3 : W3 m ρ c (Proc.devRef .tc main_arg2) = (m ((c : Thread nD τ).loc main_arg2)) := at3 m ρ c main_arg2 (by decide) (by decide) (by decide)
theorem arg3_3 : W3 m ρ c (Proc.devRef .tc main_arg3) = (m ((c : Thread nD τ).loc main_arg3)) := at3 m ρ c main_arg3 (by decide) (by decide) (by decide)
theorem arg4_3 : W3 m ρ c (Proc.devRef .tc main_arg4) = (m ((c : Thread nD τ).loc main_arg4)) := at3 m ρ c main_arg4 (by decide) (by decide) (by decide)
theorem arg5_3 : W3 m ρ c (Proc.devRef .tc main_arg5) = (m ((c : Thread nD τ).loc main_arg5)) := at3 m ρ c main_arg5 (by decide) (by decide) (by decide)
theorem arg6_3 : W3 m ρ c (Proc.devRef .tc main_arg6) = (m ((c : Thread nD τ).loc main_arg6)) := at3 m ρ c main_arg6 (by decide) (by decide) (by decide)

/-! ## The first three stretches: endpoints and the weight column -/

theorem src_1 : W1 m ρ c (Proc.devRef .tc main_v3) = src (m ((c : Thread nD τ).loc main_arg7)) := HostVal.first_src (W0 m ρ c)
theorem dst_1 : W1 m ρ c (Proc.devRef .tc main_v6) = dst (m ((c : Thread nD τ).loc main_arg7)) := HostVal.first_dst (W0 m ρ c)

theorem dinv_2 : W2 m ρ c (Proc.devRef .tc main_v19) = Cert.Spec.dinvOf (F := Ideal) (Cert.Spec.degOn (dst (m ((c : Thread nD τ).loc main_arg7)))) :=
  (HostVal.second_pick (W1 m ρ c)).trans (by
    rw [show W1 m ρ c (Proc.devRef .tc main_v17) = _ from HostVal.first_pos (W0 m ρ c),
      show W1 m ρ c (Proc.devRef .tc main_v18) = _ from HostVal.first_rsqrt (W0 m ρ c),
      show W1 m ρ c (Proc.devRef .tc main_cst_3) = _ from HostVal.first_zero (W0 m ρ c)]
    rfl)

theorem src_2 : W2 m ρ c (Proc.devRef .tc main_v3) = src (m ((c : Thread nD τ).loc main_arg7)) := (Keep.second_keeps m ρ c main_v3 (by decide)).trans (src_1 m ρ c)
theorem dst_2 : W2 m ρ c (Proc.devRef .tc main_v6) = dst (m ((c : Thread nD τ).loc main_arg7)) := (Keep.second_keeps m ρ c main_v6 (by decide)).trans (dst_1 m ρ c)

theorem wcol_3 : W3 m ρ c (Proc.devRef .tc main_v35) = wcol (F := Ideal) (m ((c : Thread nD τ).loc main_arg7)) :=
  (HostVal.third_col (W2 m ρ c)).trans (by rw [src_2 m ρ c, dst_2 m ρ c, dinv_2 m ρ c]; rfl)
theorem src_3 : W3 m ρ c (Proc.devRef .tc main_v3) = src (m ((c : Thread nD τ).loc main_arg7)) := (Keep.third_keeps m ρ c main_v3 (by decide)).trans (src_2 m ρ c)
theorem dst_3 : W3 m ρ c (Proc.devRef .tc main_v6) = dst (m ((c : Thread nD τ).loc main_arg7)) := (Keep.third_keeps m ρ c main_v6 (by decide)).trans (dst_2 m ρ c)

/-! ## Layer 0 -/

/-- After the first region: `x · W0`. -/
theorem h0_4 : W4 m ρ c (Proc.devRef .tc main_v36) = proj0 (F := Ideal) (m ((c : Thread nD τ).loc main_arg0)) (m ((c : Thread nD τ).loc main_arg1)) :=
  (W4_arr m ρ c 2).trans ((Region0.final (V3 m ρ) c).trans (by
    unfold Region0.whole
    dsimp only [V3]
    rw [arg0_3 m ρ c, arg1_3 m ρ c]
    rfl))

theorem src_4 : W4 m ρ c (Proc.devRef .tc main_v3) = src (m ((c : Thread nD τ).loc main_arg7)) := (W4_of_ne m ρ c main_v3 (by decide)).trans (src_3 m ρ c)
theorem dst_4 : W4 m ρ c (Proc.devRef .tc main_v6) = dst (m ((c : Thread nD τ).loc main_arg7)) := (W4_of_ne m ρ c main_v6 (by decide)).trans (dst_3 m ρ c)
theorem wcol_4 : W4 m ρ c (Proc.devRef .tc main_v35) = wcol (F := Ideal) (m ((c : Thread nD τ).loc main_arg7)) := (W4_of_ne m ρ c main_v35 (by decide)).trans (wcol_3 m ρ c)
theorem arg2_4 : W4 m ρ c (Proc.devRef .tc main_arg2) = (m ((c : Thread nD τ).loc main_arg2)) := (W4_of_ne m ρ c main_arg2 (by decide)).trans (arg2_3 m ρ c)

/-- After the next stretch: the messages summed at their targets, and the bias as a row. -/
theorem agg0_5 : W5 m ρ c (Proc.devRef .tc main_v53) = prop (F := Ideal) (m ((c : Thread nD τ).loc main_arg7)) (proj0 (m ((c : Thread nD τ).loc main_arg0)) (m ((c : Thread nD τ).loc main_arg1))) :=
  (HostVal.fourth_agg (W4 m ρ c)).trans (by rw [src_4 m ρ c, dst_4 m ρ c, wcol_4 m ρ c, h0_4 m ρ c]; rfl)
theorem row0_5 : W5 m ρ c (Proc.devRef .tc main_v54) = row (F := Ideal) (m ((c : Thread nD τ).loc main_arg2)) :=
  (HostVal.fourth_row (W4 m ρ c)).trans (by rw [arg2_4 m ρ c])

/-- After the second region: the first layer's activation. -/
theorem a0_6 : W6 m ρ c (Proc.devRef .tc main_v55) = act (F := Ideal) (prop (m ((c : Thread nD τ).loc main_arg7)) (proj0 (m ((c : Thread nD τ).loc main_arg0)) (m ((c : Thread nD τ).loc main_arg1)))) (m ((c : Thread nD τ).loc main_arg2)) :=
  (W6_arr m ρ c 2).trans ((Region1.final (V5 m ρ) hrow c).trans (by
    unfold Region1.whole
    dsimp only [V5]
    rw [agg0_5 m ρ c, row0_5 m ρ c]
    rfl))

/-! ## What layer 1 and the head read from earlier: carried to where it is read -/

theorem at7 (r : Ref sig .tc) (h4 : ∀ w, Pipeline.arrRef spec0 w ≠ r) (h5 : r ∉ Keep.fourth_W)
    (h6 : ∀ w, Pipeline.arrRef spec1 w ≠ r) (h7 : ∀ w, Pipeline.arrRef spec2 w ≠ r) :
    W7 m ρ c (Proc.devRef .tc r) = W3 m ρ c (Proc.devRef .tc r) :=
  (W7_of_ne m ρ c r h7).trans ((W6_of_ne m ρ c r h6).trans ((Keep.fourth_keeps m ρ c r h5).trans (W4_of_ne m ρ c r h4)))

theorem arg3_6 : W6 m ρ c (Proc.devRef .tc main_arg3) = (m ((c : Thread nD τ).loc main_arg3)) :=
  (W6_of_ne m ρ c main_arg3 (by decide)).trans ((Keep.fourth_keeps m ρ c main_arg3 (by decide)).trans
    ((W4_of_ne m ρ c main_arg3 (by decide)).trans (arg3_3 m ρ c)))

theorem src_7 : W7 m ρ c (Proc.devRef .tc main_v3) = src (m ((c : Thread nD τ).loc main_arg7)) := (at7 m ρ c main_v3 (by decide) (by decide) (by decide) (by decide)).trans (src_3 m ρ c)
theorem dst_7 : W7 m ρ c (Proc.devRef .tc main_v6) = dst (m ((c : Thread nD τ).loc main_arg7)) := (at7 m ρ c main_v6 (by decide) (by decide) (by decide) (by decide)).trans (dst_3 m ρ c)
theorem wcol_7 : W7 m ρ c (Proc.devRef .tc main_v35) = wcol (F := Ideal) (m ((c : Thread nD τ).loc main_arg7)) := (at7 m ρ c main_v35 (by decide) (by decide) (by decide) (by decide)).trans (wcol_3 m ρ c)
theorem arg4_7 : W7 m ρ c (Proc.devRef .tc main_arg4) = (m ((c : Thread nD τ).loc main_arg4)) := (at7 m ρ c main_arg4 (by decide) (by decide) (by decide) (by decide)).trans (arg4_3 m ρ c)
theorem arg5_7 : W7 m ρ c (Proc.devRef .tc main_arg5) = (m ((c : Thread nD τ).loc main_arg5)) := (at7 m ρ c main_arg5 (by decide) (by decide) (by decide) (by decide)).trans (arg5_3 m ρ c)
theorem arg6_7 : W7 m ρ c (Proc.devRef .tc main_arg6) = (m ((c : Thread nD τ).loc main_arg6)) := (at7 m ρ c main_arg6 (by decide) (by decide) (by decide) (by decide)).trans (arg6_3 m ρ c)

/-! ## Layer 1 -/

/-- After the third region: the first activation times `W1`. -/
theorem h1_7 : W7 m ρ c (Proc.devRef .tc main_v56) = proj (F := Ideal) (act (prop (m ((c : Thread nD τ).loc main_arg7)) (proj0 (m ((c : Thread nD τ).loc main_arg0)) (m ((c : Thread nD τ).loc main_arg1)))) (m ((c : Thread nD τ).loc main_arg2))) (m ((c : Thread nD τ).loc main_arg3)) :=
  (W7_arr m ρ c 2).trans ((Region2.final (V6 m ρ) c).trans (by
    unfold Region2.whole
    dsimp only [V6]
    rw [a0_6 m ρ c, arg3_6 m ρ c]
    rfl))

theorem agg1_8 : W8 m ρ c (Proc.devRef .tc main_v73) = prop (F := Ideal) (m ((c : Thread nD τ).loc main_arg7)) (proj (act (prop (m ((c : Thread nD τ).loc main_arg7)) (proj0 (m ((c : Thread nD τ).loc main_arg0)) (m ((c : Thread nD τ).loc main_arg1)))) (m ((c : Thread nD τ).loc main_arg2))) (m ((c : Thread nD τ).loc main_arg3))) :=
  (HostVal.fifth_agg (W7 m ρ c)).trans (by rw [src_7 m ρ c, dst_7 m ρ c, wcol_7 m ρ c, h1_7 m ρ c]; rfl)
theorem row1_8 : W8 m ρ c (Proc.devRef .tc main_v74) = row (F := Ideal) (m ((c : Thread nD τ).loc main_arg4)) :=
  (HostVal.fifth_row (W7 m ρ c)).trans (by rw [arg4_7 m ρ c])

/-- After the fourth region: the second layer's activation. -/
theorem a1_9 : W9 m ρ c (Proc.devRef .tc main_v75) = act (F := Ideal) (prop (m ((c : Thread nD τ).loc main_arg7)) (proj (act (prop (m ((c : Thread nD τ).loc main_arg7)) (proj0 (m ((c : Thread nD τ).loc main_arg0)) (m ((c : Thread nD τ).loc main_arg1)))) (m ((c : Thread nD τ).loc main_arg2))) (m ((c : Thread nD τ).loc main_arg3)))) (m ((c : Thread nD τ).loc main_arg4)) :=
  (W9_arr m ρ c 2).trans ((Region3.final (V8 m ρ) hrow c).trans (by
    unfold Region3.whole
    dsimp only [V8]
    rw [agg1_8 m ρ c, row1_8 m ρ c]
    rfl))

theorem arg5_9 : W9 m ρ c (Proc.devRef .tc main_arg5) = (m ((c : Thread nD τ).loc main_arg5)) :=
  (W9_of_ne m ρ c main_arg5 (by decide)).trans ((Keep.fifth_keeps m ρ c main_arg5 (by decide)).trans (arg5_7 m ρ c))
theorem arg6_10 : W10 m ρ c (Proc.devRef .tc main_arg6) = (m ((c : Thread nD τ).loc main_arg6)) :=
  (W10_of_ne m ρ c main_arg6 (by decide)).trans ((W9_of_ne m ρ c main_arg6 (by decide)).trans
    ((Keep.fifth_keeps m ρ c main_arg6 (by decide)).trans (arg6_7 m ρ c)))

/-! ## The head -/

/-- After the fifth region: the second activation times the head's weight. -/
theorem h2_10 : W10 m ρ c (Proc.devRef .tc main_v76)
    = proj (F := Ideal) (act (prop (m ((c : Thread nD τ).loc main_arg7)) (proj (act (prop (m ((c : Thread nD τ).loc main_arg7)) (proj0 (m ((c : Thread nD τ).loc main_arg0)) (m ((c : Thread nD τ).loc main_arg1)))) (m ((c : Thread nD τ).loc main_arg2))) (m ((c : Thread nD τ).loc main_arg3)))) (m ((c : Thread nD τ).loc main_arg4))) (m ((c : Thread nD τ).loc main_arg5)) :=
  (W10_arr m ρ c 2).trans ((Region4.final (V9 m ρ) c).trans (by
    unfold Region4.whole
    dsimp only [V9]
    rw [a1_9 m ρ c, arg5_9 m ρ c]
    rfl))

theorem h2_11 : W11 m ρ c (Proc.devRef .tc main_v76)
    = proj (F := Ideal) (act (prop (m ((c : Thread nD τ).loc main_arg7)) (proj (act (prop (m ((c : Thread nD τ).loc main_arg7)) (proj0 (m ((c : Thread nD τ).loc main_arg0)) (m ((c : Thread nD τ).loc main_arg1)))) (m ((c : Thread nD τ).loc main_arg2))) (m ((c : Thread nD τ).loc main_arg3)))) (m ((c : Thread nD τ).loc main_arg4))) (m ((c : Thread nD τ).loc main_arg5)) :=
  (Keep.sixth_keeps m ρ c main_v76 (by decide)).trans (h2_10 m ρ c)
theorem row2_11 : W11 m ρ c (Proc.devRef .tc main_v77) = row (F := Ideal) (m ((c : Thread nD τ).loc main_arg6)) :=
  (HostVal.sixth_row (W10 m ρ c)).trans (by rw [arg6_10 m ρ c])

/-- THE RESULT: after the last region the result buffer holds the network of the arguments as launched. -/
theorem result : W12 m ρ c (Proc.devRef .tc main_v78)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Region5.final (V11 m ρ) hrow c).trans (by
    unfold Region5.whole
    dsimp only [V11]
    rw [h2_11 m ρ c, row2_11 m ρ c]
    rfl))

end Cert.KernelIdeal.NetVal

end
-- ==== Proof.lean ====
/-
  The certificate of a two-layer graph convolution network with a dense head: a kernel program of six tiled pallas_calls
  (three row-blocked projections with operands rounded to bf16, three bias-add + `tanh` passes) around plain host
  gather / scatter-add glue, against the plain jnp reference.

  At the ideal values the two programs compute ONE function of the argument arrays, `Spec.net`:
  `act (proj (act (prop e (proj (act (prop e (x · W0)) b0) W1)) b1) Wf) bf`. For the reference this is its run's composed
  term, read off as it stands. For the kernel it is the last boundary's contents at the result buffer: each region's
  25 row blocks tile its whole-array result (a row block of a product is the product of the row block; a bias + `tanh` pass
  is entry by entry; rounding to bf16 is the identity on the extended reals), and the host stretches between the regions
  are the reference's own operations. The two sides' equality needs no arithmetic law, only that equal arguments give
  equal values, so the precondition (finite inputs) is never opened. The ideal pass rewrote nothing: `preserves` is `True`.
-/
import proofs.«144353_j32203664786076_1_alg».proof.Defs
import proofs.«144353_j32203664786076_1_alg».proof.Proof.Gen.Kernel
import proofs.«144353_j32203664786076_1_alg».proof.Proof.Gen.Kernel.Skeleton
import proofs.«144353_j32203664786076_1_alg».proof.Proof.Gen.Kernel.Launch
import proofs.«144353_j32203664786076_1_alg».proof.Proof.Gen.Kernel.Points
import proofs.«144353_j32203664786076_1_alg».proof.Proof.Gen.Kernel.Frame
import proofs.«144353_j32203664786076_1_alg».proof.Proof.Gen.KernelIdeal
import proofs.«144353_j32203664786076_1_alg».proof.Proof.Gen.KernelIdeal.Skeleton
import proofs.«144353_j32203664786076_1_alg».proof.Proof.Gen.KernelIdeal.Launch
import proofs.«144353_j32203664786076_1_alg».proof.Proof.Gen.KernelIdeal.Points
import proofs.«144353_j32203664786076_1_alg».proof.Proof.Gen.KernelIdeal.Frame
import proofs.«144353_j32203664786076_1_alg».proof.Proof.Gen.ReferenceIdeal
import proofs.«144353_j32203664786076_1_alg».proof.Proof.Gen.Pre_finite_inputs
import proofs.«144353_j32203664786076_1_alg».proof.Proof.Spec
import proofs.«144353_j32203664786076_1_alg».proof.Proof.RefRun
import proofs.«144353_j32203664786076_1_alg».proof.Proof.KernelRun
import proofs.«144353_j32203664786076_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-! ## The value -/

/-- The reference run's composed term IS the network of the arguments (its nested operations, named). -/
theorem reference_net (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v85 (F := Ideal) m c
      = Cert.Spec.net (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.ValueP.res_main_v85
  rfl

/-- From memories agreeing on the arguments both programs end with the network of the arguments in their result buffers. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunVal.run_final (F := Ideal) m ρ)
    exact ⟨(h c _ (Cert.KernelIdeal.Gen.mem_uc Cert.KernelIdeal.main_v78 (by decide))).trans (Cert.KernelIdeal.NetVal.result m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c)⟩
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [reference_net m' c, e0, e1, e2, e3, e4, e5, e6, e7]

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
